-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000x8192 : Shape := ⟨2, ![2000, 8192]⟩
abbrev S2000 : Shape := ⟨1, ![2000]⟩
abbrev S8192x2000 : Shape := ⟨2, ![8192, 2000]⟩
abbrev S_ : Shape := ⟨0, ![]⟩

class Facts : Prop where
  bcast_S_S2000x8192 : S_.BroadcastsInDim S2000x8192 (![] : Fin 0 → Fin S2000x8192.rank)
  reducesTo_S2000x8192_S_d0_1 : S2000x8192.ReducesTo [0, 1] S_
  h_S_ : 0 < S_.numel
  bcast_S_S2000 : S_.BroadcastsInDim S2000 (![] : Fin 0 → Fin S2000.rank)
  reducesTo_S2000_S_d0 : S2000.ReducesTo [0] S_
  bcast_S_S8192x2000 : S_.BroadcastsInDim S8192x2000 (![] : Fin 0 → Fin S8192x2000.rank)
  reducesTo_S8192x2000_S_d0_1 : S8192x2000.ReducesTo [0, 1] S_

variable [Facts]

def fn {F : FTy → Type} [FloatOps F] (main_arg0 : FVec F S2000x8192 .f32) (main_arg1 : FVec F S2000 .f32) (main_arg2 : FVec F S8192x2000 .f32) : IVec S_ 1 :=
  let main_v0 : FVec F S2000x8192 .f32 := Host.absf main_arg0
  let main_cst : FVec F S_ .f32 := constant S_ .f32 0x7F800000#32
  let main_v1 : FVec F S2000x8192 .f32 := broadcastInDim S2000x8192 ![] bcast_S_S2000x8192 main_cst
  let main_v2 : IVec S2000x8192 1 := cmpf .olt main_v0 main_v1
  let main_c : IVec S_ 1 := constantI S_ 1 1#1
  let main_v3 : IVec S_ 1 := (fun x v => Host.reduce IntOp.andi x v reducesTo_S2000x8192_S_d0_1 h_S_) main_v2 main_c
  let main_v4 : FVec F S2000 .f32 := Host.absf main_arg1
  let main_cst_0 : FVec F S_ .f32 := constant S_ .f32 0x7F800000#32
  let main_v5 : FVec F S2000 .f32 := broadcastInDim S2000 ![] bcast_S_S2000 main_cst_0
  let main_v6 : IVec S2000 1 := cmpf .olt main_v4 main_v5
  let main_c_1 : IVec S_ 1 := constantI S_ 1 1#1
  let main_v7 : IVec S_ 1 := (fun x v => Host.reduce IntOp.andi x v reducesTo_S2000_S_d0 h_S_) main_v6 main_c_1
  let main_v8 : IVec S_ 1 := andi main_v3 main_v7
  let main_v9 : FVec F S8192x2000 .f32 := Host.absf main_arg2
  let main_cst_2 : FVec F S_ .f32 := constant S_ .f32 0x7F800000#32
  let main_v10 : FVec F S8192x2000 .f32 := broadcastInDim S8192x2000 ![] bcast_S_S8192x2000 main_cst_2
  let main_v11 : IVec S8192x2000 1 := cmpf .olt main_v9 main_v10
  let main_c_3 : IVec S_ 1 := constantI S_ 1 1#1
  let main_v12 : IVec S_ 1 := (fun x v => Host.reduce IntOp.andi x v reducesTo_S8192x2000_S_d0_1 h_S_) main_v11 main_c_3
  let main_v13 : IVec S_ 1 := andi main_v8 main_v12
  main_v13
-- ==== Kernel.lean ====
abbrev S2000x8192 : Shape := ⟨2, ![2000, 8192]⟩
abbrev S2000 : Shape := ⟨1, ![2000]⟩
abbrev S8192x2000 : Shape := ⟨2, ![8192, 2000]⟩
abbrev S1x2000 : Shape := ⟨2, ![1, 2000]⟩
abbrev S2000x2000 : Shape := ⟨2, ![2000, 2000]⟩
abbrev S1000x512 : Shape := ⟨2, ![1000, 512]⟩
abbrev S512x2000 : Shape := ⟨2, ![512, 2000]⟩
abbrev S1000x2000 : Shape := ⟨2, ![1000, 2000]⟩

abbrev nBuf : Space → Nat
  | .hbm => 5
  | .vmem => 7
  | .smem => 0
  | _ => 0

abbrev bufTy : (tb : Table) → Fin (tcTables nBuf tb) → BufTy
  | .hbm, ⟨0, _⟩ => ⟨S2000x8192, .f32⟩
  | .hbm, ⟨1, _⟩ => ⟨S2000, .f32⟩
  | .hbm, ⟨2, _⟩ => ⟨S8192x2000, .f32⟩
  | .hbm, ⟨3, _⟩ => ⟨S1x2000, .f32⟩
  | .hbm, ⟨4, _⟩ => ⟨S2000x2000, .f32⟩
  | .local _ .vmem, ⟨0, _⟩ => ⟨S1000x512, .f32⟩
  | .local _ .vmem, ⟨1, _⟩ => ⟨S1000x512, .f32⟩
  | .local _ .vmem, ⟨2, _⟩ => ⟨S512x2000, .f32⟩
  | .local _ .vmem, ⟨3, _⟩ => ⟨S512x2000, .f32⟩
  | .local _ .vmem, ⟨4, _⟩ => ⟨S1x2000, .f32⟩
  | .local _ .vmem, ⟨5, _⟩ => ⟨S1000x2000, .f32⟩
  | .local _ .vmem, ⟨6, _⟩ => ⟨S1000x2000, .f32⟩
  | _, _ => ⟨S2000x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1000x2000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S2000_S1x2000 : S2000.ShapeCasts S1x2000
  inb_S1000x2000_S1000x2000_0_0 : ∀ a, (![0, 0] : Fin 2 → Nat) a + S1000x2000.size a ≤ S1000x2000.size a
  h_S1000x2000 : 0 < S1000x2000.numel
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x2000_S512x2000_0_0 : ∀ a, (![0, 0] : Fin 2 → Nat) a + S512x2000.size a ≤ S512x2000.size a
  h_S512x2000 : 0 < S512x2000.numel
  shapeCasts_S1000x2000_S1000x2000 : S1000x2000.ShapeCasts S1000x2000
  inb_S1x2000_S1x2000_0_0 : ∀ a, (![0, 0] : Fin 2 → Nat) a + S1x2000.size a ≤ S1x2000.size a
  h_S1x2000 : 0 < S1x2000.numel
  shapeCasts_S1x2000_S1x2000 : S1x2000.ShapeCasts S1x2000
  broadcasts_S1x2000_S1000x2000 : S1x2000.Broadcasts S1000x2000
  dot_S1000x512_S512x2000_S1000x2000_1_0_0_1_n_n_wf : DotDims.WF S1000x512 S512x2000 S1000x2000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S2000x8192.size a
  hwx0_0 : ∀ i : grid0.Coords, EltTy.bits .f32 = 32 ∨ (Rect.block (s := S2000x8192) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2000.size a ≤ S8192x2000.size a
  hwx0_1 : ∀ i : grid0.Coords, EltTy.bits .f32 = 32 ∨ (Rect.block (s := S8192x2000) S512x2000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2000.size a ≤ S1x2000.size a
  hwx0_2 : ∀ i : grid0.Coords, EltTy.bits .f32 = 32 ∨ (Rect.block (s := S1x2000) S1x2000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x2000.size a ≤ S2000x2000.size a
  hwx0_3 : ∀ i : grid0.Coords, EltTy.bits .f32 = 32 ∨ (Rect.block (s := S2000x2000) S1000x2000.size (cc0_transform_3 i) (hinb0_3 i)).WholeWords (EltTy.packing .f32)

variable [Facts₀]

def dot_S1000x512_S512x2000_S1000x2000_1_0_0_1_n_n : DotDims S1000x512 S512x2000 S1000x2000 where
  lhsContracting := [1]
  rhsContracting := [0]
  lhsNonContracting := [0]
  rhsNonContracting := [1]
  lhsBatch := []
  rhsBatch := []
  wf := dot_S1000x512_S512x2000_S1000x2000_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x2000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1000x2000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2000x8192 : Shape := ⟨2, ![2000, 8192]⟩
abbrev S2000 : Shape := ⟨1, ![2000]⟩
abbrev S8192x2000 : Shape := ⟨2, ![8192, 2000]⟩
abbrev S2000x2000 : Shape := ⟨2, ![2000, 2000]⟩
abbrev S1x2000 : Shape := ⟨2, ![1, 2000]⟩

abbrev nBuf : Space → Nat
  | .hbm => 7
  | .vmem => 0
  | .smem => 0
  | _ => 0

abbrev bufTy : (tb : Table) → Fin (tcTables nBuf tb) → BufTy
  | .hbm, ⟨0, _⟩ => ⟨S2000x8192, .f32⟩
  | .hbm, ⟨1, _⟩ => ⟨S2000, .f32⟩
  | .hbm, ⟨2, _⟩ => ⟨S8192x2000, .f32⟩
  | .hbm, ⟨3, _⟩ => ⟨S2000x2000, .f32⟩
  | .hbm, ⟨4, _⟩ => ⟨S1x2000, .f32⟩
  | .hbm, ⟨5, _⟩ => ⟨S2000x2000, .f32⟩
  | .hbm, ⟨6, _⟩ => ⟨S2000x2000, .f32⟩
  | _, _ => ⟨S2000x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S2000_S1x2000_1 : S2000.BroadcastsInDim S1x2000 (![1] : Fin 1 → Fin S1x2000.rank)
  bcast_S1x2000_S2000x2000_0_1 : S1x2000.BroadcastsInDim S2000x2000 (![0, 1] : Fin 2 → Fin S2000x2000.rank)
  dot_S2000x8192_S8192x2000_S2000x2000_1_0_0_1_n_n_wf : DotDims.WF S2000x8192 S8192x2000 S2000x2000 [1] [0] [0] [1] [] []

variable [Facts₀]

def dot_S2000x8192_S8192x2000_S2000x2000_1_0_0_1_n_n : DotDims S2000x8192 S8192x2000 S2000x2000 where
  lhsContracting := [1]
  rhsContracting := [0]
  lhsNonContracting := [0]
  rhsNonContracting := [1]
  lhsBatch := []
  rhsBatch := []
  wf := dot_S2000x8192_S8192x2000_S2000x2000_1_0_0_1_n_n_wf

class Facts : Prop extends Facts₀ where

variable [Facts]
-- ==== Proof.MatBias.lean ====
/-
  The function both programs compute, and the one law of sums that joins them.

  The result array has entry (r, j) equal to the inner product of row r of the weight matrix with column j of
  the input matrix, taken over all 8192 contraction positions, plus entry j of the bias vector (the bias is added
  along the LAST axis: it depends on the column, not on the row).

  The kernel forms the inner product in 16 consecutive blocks of 512 contraction positions and adds the block
  sums one after the other; the reference takes the sum in one piece. On the extended reals addition is
  commutative and associative without exception (the infinities included), so regrouping a finite sum needs
  no finiteness of the inputs.
-/
import Idealize.ShloMosaic.Lib.ValueIdx
import Idealize.ShloMosaic.PureOps.Ideal.Laws

noncomputable section

namespace Cert.MatBias

open Idealize.ShloMosaic Idealize.ShloMosaic.ValueIdx
open scoped BigOperators

/-- The result as ONE function of the three argument arrays: at (r, j) the full inner product of row r of the
    weights with column j of the input, plus the bias at j. -/
def matBias (W : (⟨2, ![2000, 8192]⟩ : Shape).Idx → EReal) (b : (⟨1, ![2000]⟩ : Shape).Idx → EReal)
    (X : (⟨2, ![8192, 2000]⟩ : Shape).Idx → EReal) : (⟨2, ![2000, 2000]⟩ : Shape).Idx → EReal :=
  fun i => (∑ k : Fin 8192, W (ix2 (i 0) k) * X (ix2 k (i 1))) + b (ix1 (i 1))

/-- A sum over 8192 consecutive positions is the sum, over 16 consecutive blocks, of each block's sum over its
    512 positions: position 512·s + kk is the kk-th of block s. Only the commutative-monoid laws are used. -/
theorem sum_blocks {β : Type*} [AddCommMonoid β] (f : Fin 8192 → β) :
    ∑ k : Fin 8192, f k
      = ∑ s : Fin 16, ∑ kk : Fin 512, f ⟨512 * s.val + kk.val, by have := s.isLt; have := kk.isLt; omega⟩ := by
  have h := Equiv.sum_comp (finProdFinEquiv (m := 16) (n := 512)) (f : Fin (16 * 512) → β)
  rw [Fintype.sum_prod_type] at h
  rw [← h]
  refine Finset.sum_congr rfl fun s _ => Finset.sum_congr rfl fun kk _ => congrArg f (Fin.ext ?_)
  show kk.val + 512 * s.val = 512 * s.val + kk.val
  omega

/-- The s-th partial inner product: row R of the weights against column q of the input over the 512 contraction
    positions 512·s … 512·s + 511. -/
def blockSum (W : (⟨2, ![2000, 8192]⟩ : Shape).Idx → EReal) (X : (⟨2, ![8192, 2000]⟩ : Shape).Idx → EReal)
    (R q : Fin 2000) (s : Fin 16) : EReal :=
  ∑ kk : Fin 512, W (ix2 R ⟨512 * s.val + kk.val, by have := s.isLt; have := kk.isLt; omega⟩)
    * X (ix2 ⟨512 * s.val + kk.val, by have := s.isLt; have := kk.isLt; omega⟩ q)

/-- The specification function with its inner product regrouped into the 16 partial inner products. -/
theorem matBias_blocks (W : (⟨2, ![2000, 8192]⟩ : Shape).Idx → EReal) (b : (⟨1, ![2000]⟩ : Shape).Idx → EReal)
    (X : (⟨2, ![8192, 2000]⟩ : Shape).Idx → EReal) (i : (⟨2, ![2000, 2000]⟩ : Shape).Idx) :
    matBias W b X i = (∑ s : Fin 16, blockSum W X (i 0) (i 1) s) + b (ix1 (i 1)) :=
  congrArg (· + b (ix1 (i 1))) (sum_blocks fun k => W (ix2 (i 0) k) * X (ix2 k (i 1)))

end Cert.MatBias

end
-- ==== Proof.PayloadAt.lean ====
/-
  The three values the kernel body stores into its output block, each read at one entry (p, q) of the
  1000 × 2000 block, on the extended reals.

  * the reset value is the zero block;
  * an accumulation step stores  acc(p, q) + Σ_kk w(p, kk) · x(kk, q)  over the 512 contraction positions of the
    point's weight block w (1000 × 512) and input block x (512 × 2000): the matrix product goes into a zero
    accumulator, the narrowing of both operands to bf16 is the identity on extended reals, and the reshape of
    the block to its own shape is the identity;
  * the last step of a run adds the bias row: entry (p, q) gets the bias block's entry (0, q) — the 1 × 2000 row
    is broadcast down the 1000 rows, so the addend depends on the column only.
-/
import proofs.«142126_j70317204570841_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.PayloadAt

open Cert.KernelIdeal Cert.KernelIdeal.Gen Idealize.ShloMosaic Idealize.ShloMosaic.ValueIdx
open scoped BigOperators

/-- The reset value: every entry of the zero block is the extended real 0. -/
theorem zeroBlock_apply (i : S1000x2000.Idx) : k0_pay1 (F := Ideal) i = 0 := by
  show Ideal.ofBits .f32 0x00000000#32 = 0
  exact Ideal.ofBits_zero_f32

/-- The left operand's index at output entry `j` and contraction position `k`: row of `j`, column `k`. -/
theorem lhs_row (j : S1000x2000.Idx) (k : dot_S1000x512_S512x2000_S1000x2000_1_0_0_1_n_n.contr.Idx) :
    (dot_S1000x512_S512x2000_S1000x2000_1_0_0_1_n_n.lhsIdx j k 0).val = (j 0).val := by
  unfold DotDims.lhsIdx
  rw [dif_neg (show ¬(0 : Fin S1000x512.rank) ∈ dot_S1000x512_S512x2000_S1000x2000_1_0_0_1_n_n.lhsBatch by decide),
    dif_pos (show (0 : Fin S1000x512.rank) ∈ dot_S1000x512_S512x2000_S1000x2000_1_0_0_1_n_n.lhsNonContracting by decide)]
  rfl

/-- The right operand's index at output entry `j` and contraction position `k`: row `k`, column of `j`. -/
theorem rhs_col (j : S1000x2000.Idx) (k : dot_S1000x512_S512x2000_S1000x2000_1_0_0_1_n_n.contr.Idx) :
    (dot_S1000x512_S512x2000_S1000x2000_1_0_0_1_n_n.rhsIdx j k 1).val = (j 1).val := by
  unfold DotDims.rhsIdx
  rw [dif_neg (show ¬(1 : Fin S512x2000.rank) ∈ dot_S1000x512_S512x2000_S1000x2000_1_0_0_1_n_n.rhsBatch by decide),
    dif_pos (show (1 : Fin S512x2000.rank) ∈ dot_S1000x512_S512x2000_S1000x2000_1_0_0_1_n_n.rhsNonContracting by decide)]
  rfl

/-- An accumulation step at entry (p, q): what was there, plus the inner product of row p of the weight block
    with column q of the input block over the block's 512 contraction positions. -/
theorem accumulate_apply (w : Vec Ideal S1000x512 .f32) (x : Vec Ideal S512x2000 .f32) (acc : Vec Ideal S1000x2000 .f32)
    (p : Fin 1000) (q : Fin 2000) :
    k0_pay2 w x acc (ix2 p q) = acc (ix2 p q) + ∑ kk : Fin 512, w (ix2 p kk) * x (ix2 kk q) := by
  unfold k0_pay2
  show ((shapeCast S1000x2000 acc shapeCasts_S1000x2000_S1000x2000) (ix2 p q) : EReal)
      + (FloatOps.matmul (F := Ideal) dot_S1000x512_S512x2000_S1000x2000_1_0_0_1_n_n none (truncf .bf16 w bitsLt_bf16_f32)
          (truncf .bf16 x bitsLt_bf16_f32) (constant S1000x2000 .f32 0x00000000#32) (ix2 p q) : EReal) = _
  rw [shapeCast_self, Ideal.matmul_constant_zero_apply,
    ← Equiv.sum_comp (contrEquiv1 dot_S1000x512_S512x2000_S1000x2000_1_0_0_1_n_n 512 rfl rfl).symm]
  refine congrArg (acc (ix2 p q) + ·) (Finset.sum_congr rfl fun k _ => ?_)
  have hk := contrEquiv1_symm_val dot_S1000x512_S512x2000_S1000x2000_1_0_0_1_n_n 512 rfl rfl k
  have el : dot_S1000x512_S512x2000_S1000x2000_1_0_0_1_n_n.lhsIdx (ix2 p q)
      ((contrEquiv1 dot_S1000x512_S512x2000_S1000x2000_1_0_0_1_n_n 512 rfl rfl).symm k) = ix2 p k :=
    funext fun a => Fin.ext (by
      match a with
      | ⟨0, _⟩ => exact lhs_row _ _
      | ⟨1, _⟩ => exact (dot_S1000x512_S512x2000_S1000x2000_1_0_0_1_n_n.lhsIdx_val_of_single rfl _ _).trans hk)
  have er : dot_S1000x512_S512x2000_S1000x2000_1_0_0_1_n_n.rhsIdx (ix2 p q)
      ((contrEquiv1 dot_S1000x512_S512x2000_S1000x2000_1_0_0_1_n_n 512 rfl rfl).symm k) = ix2 k q :=
    funext fun a => Fin.ext (by
      match a with
      | ⟨0, _⟩ => exact (dot_S1000x512_S512x2000_S1000x2000_1_0_0_1_n_n.rhsIdx_val_of_single rfl _ _).trans hk
      | ⟨1, _⟩ => exact rhs_col _ _)
  rw [el, er]
  rfl

/-- The last step of a run at entry (p, q): what was there, plus the bias block's entry in column q. -/
theorem addBias_apply (a : Vec Ideal S1000x2000 .f32) (b : Vec Ideal S1x2000 .f32) (p : Fin 1000) (q : Fin 2000) :
    k0_pay3 a b (ix2 p q) = a (ix2 p q) + b (ix2 (0 : Fin 1) q) := by
  unfold k0_pay3
  show ((shapeCast S1000x2000 a shapeCasts_S1000x2000_S1000x2000) (ix2 p q) : EReal)
      + (broadcastTo S1000x2000 (shapeCast S1x2000 b shapeCasts_S1x2000_S1x2000) broadcasts_S1x2000_S1000x2000 (ix2 p q) : EReal) = _
  rw [shapeCast_self, shapeCast_self]
  refine congrArg (a (ix2 p q) + ·) (broadcastTo_apply b _ (ix2 p q) (ix2 (0 : Fin 1) q) (fun d => ?_))
  match d with
  | ⟨0, _⟩ => show 0 = if (1 : Nat) = 1 then 0 else _; rw [if_pos rfl]
  | ⟨1, _⟩ => show q.val = if (2000 : Nat) = 1 then 0 else q.val; rw [if_neg (by decide)]

/-- The block product at block entry y: row y₀ of a weight block times column y₁ of an input block over the block's
    512 contraction positions. -/
def blockProduct (w : Vec Ideal S1000x512 .f32) (x : Vec Ideal S512x2000 .f32) (y : S1000x2000.Idx) : EReal :=
  ∑ kk : Fin 512, w (ix2 (y 0) kk) * x (ix2 kk (y 1))

/-- The bias block's entry in column q (its one row). -/
def biasEntry (b : Vec Ideal S1x2000 .f32) (q : Fin 2000) : EReal := b (ix2 (0 : Fin 1) q)

/-- An accumulation step at any block entry: what was there plus the block product there. -/
theorem accumulate_eq (w : Vec Ideal S1000x512 .f32) (x : Vec Ideal S512x2000 .f32) (acc : Vec Ideal S1000x2000 .f32)
    (y : S1000x2000.Idx) : k0_pay2 w x acc y = acc y + blockProduct w x y := by
  obtain ⟨p, q, rfl⟩ : ∃ (p : Fin 1000) (q : Fin 2000), y = ix2 p q := ⟨y 0, y 1, eq_ix2 y⟩
  exact accumulate_apply w x acc p q

/-- The last step of a run at any block entry: what was there plus the bias entry of the column. -/
theorem addBias_eq (a : Vec Ideal S1000x2000 .f32) (b : Vec Ideal S1x2000 .f32) (y : S1000x2000.Idx) :
    k0_pay3 a b y = a y + biasEntry b (y 1) := by
  obtain ⟨p, q, rfl⟩ : ∃ (p : Fin 1000) (q : Fin 2000), y = ix2 p q := ⟨y 0, y 1, eq_ix2 y⟩
  exact addBias_apply a b p q

end Cert.KernelIdeal.PayloadAt

end
-- ==== Proof.BlockRead.lean ====
/-
  What the kernel's three input blocks hold at grid point t (the 32 points are numbered row-major over the
  2 × 16 grid, so point t is row block t / 16 and contraction block t % 16), as entries of the argument arrays:

  * the weight block (1000 × 512) is rows 1000·(t / 16) … and columns 512·(t % 16) … of the 2000 × 8192 weights;
  * the input block (512 × 2000) is rows 512·(t % 16) … and all columns of the 8192 × 2000 input;
  * the bias block (1 × 2000) is the whole 1 × 2000 row the host made by reshaping the 2000 biases: its entry
    (0, q) is bias q.

  A block's entry y sits in its array at  block index × block size + y  on each axis; the block indices are
  decided once over the 32 grid points.
-/
import proofs.«142126_j70317204570841_2_alg».proof.Proof.Gen.KernelIdeal.Frame.Runs
import Idealize.ShloMosaic.Lib.ValueIdx
import Idealize.ShloMosaic.Lib.Pipeline.Value
import Idealize.ShloMosaic.Lib.StableHlo.Run

set_option maxRecDepth 16384

noncomputable section

namespace Cert.KernelIdeal.BlockRead

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The weight window's block index at point t: (t / 16, t % 16). -/
theorem weight_index : ∀ t : Fin cfg0.N, win0_0.index t (0 : Fin 2) = t.val / 16 ∧ win0_0.index t (1 : Fin 2) = t.val % 16 :=
  (by decide +kernel : ∀ t : Fin grid0.N, _)

/-- The input window's block index at point t: (t % 16, 0). -/
theorem input_index : ∀ t : Fin cfg0.N, win0_1.index t (0 : Fin 2) = t.val % 16 ∧ win0_1.index t (1 : Fin 2) = 0 :=
  (by decide +kernel : ∀ t : Fin grid0.N, _)

/-- The bias window's block index at every point: (0, 0). -/
theorem bias_index : ∀ t : Fin cfg0.N, win0_2.index t (0 : Fin 2) = 0 ∧ win0_2.index t (1 : Fin 2) = 0 :=
  (by decide +kernel : ∀ t : Fin grid0.N, _)

/-- Entry (p, kk) of the weight block at point t is the weights' entry (R, K) with
    R = 1000·(t / 16) + p and K = 512·(t % 16) + kk. -/
theorem weight_block_apply (c : Dev nD) (t : Fin cfg0.N) (p : Fin 1000) (kk : Fin 512) (R : Fin 2000) (K : Fin 8192)
    (hR : R.val = t.val / 16 * 1000 + p.val) (hK : K.val = t.val % 16 * 512 + kk.val) :
    (iblk m c 0 t : Vec Ideal S1000x512 .f32) (ix2 p kk) = m ((c : Thread nD τ).loc main_arg0) (ix2 R K) := by
  rw [← V_main_arg0 m c]
  show V m c main_arg0 (((cfg0.win 0).blk t).view.emb (ix2 p kk)) = V m c main_arg0 _
  obtain ⟨e0, e1⟩ := weight_index t
  refine congrArg (V m c main_arg0) (funext fun a => Fin.ext ?_)
  match a with
  | ⟨0, _⟩ => show win0_0.index t (0 : Fin 2) * 1000 + 1 * p.val = R.val; rw [e0, hR]; omega
  | ⟨1, _⟩ => show win0_0.index t (1 : Fin 2) * 512 + 1 * kk.val = K.val; rw [e1, hK]; omega

/-- Entry (kk, q) of the input block at point t is the input's entry (K, q) with K = 512·(t % 16) + kk. -/
theorem input_block_apply (c : Dev nD) (t : Fin cfg0.N) (kk : Fin 512) (q : Fin 2000) (K : Fin 8192)
    (hK : K.val = t.val % 16 * 512 + kk.val) :
    (iblk m c 1 t : Vec Ideal S512x2000 .f32) (ix2 kk q) = m ((c : Thread nD τ).loc main_arg2) (ix2 K q) := by
  rw [← V_main_arg2 m c]
  show V m c main_arg2 (((cfg0.win 1).blk t).view.emb (ix2 kk q)) = V m c main_arg2 _
  obtain ⟨e0, e1⟩ := input_index t
  refine congrArg (V m c main_arg2) (funext fun a => Fin.ext ?_)
  match a with
  | ⟨0, _⟩ => show win0_1.index t (0 : Fin 2) * 512 + 1 * kk.val = K.val; rw [e0, hK]; omega
  | ⟨1, _⟩ => show win0_1.index t (1 : Fin 2) * 2000 + 1 * q.val = q.val; rw [e1]; omega

/-- The row the region finds in the bias window's array: the host's reshape of the 2000 biases to 1 × 2000. -/
theorem bias_row (c : Dev nD) :
    (V m c main_v0 : S1x2000.Idx → EReal)
      = shapeCast S1x2000 (m ((c : Thread nD τ).loc main_arg1)) shapeCasts_S2000_S1x2000 := by
  dsimp only [V, hostOps0]
  after_results
  rfl

/-- Entry (0, q) of the bias block, at any point, is bias q. -/
theorem bias_block_apply (c : Dev nD) (t : Fin cfg0.N) (q : Fin 2000) :
    (iblk m c 2 t : Vec Ideal S1x2000 .f32) (ix2 (0 : Fin 1) q) = m ((c : Thread nD τ).loc main_arg1) (ix1 q) := by
  show V m c main_v0 (((cfg0.win 2).blk t).view.emb (ix2 (0 : Fin 1) q)) = _
  obtain ⟨e0, e1⟩ := bias_index t
  have hpos : ((cfg0.win 2).blk t).view.emb (ix2 (0 : Fin 1) q) = ix2 (0 : Fin 1) q :=
    funext fun a => Fin.ext (by
      match a with
      | ⟨0, _⟩ => show win0_2.index t (0 : Fin 2) * 1 + 1 * 0 = 0; rw [e0]
      | ⟨1, _⟩ => show win0_2.index t (1 : Fin 2) * 2000 + 1 * q.val = q.val; rw [e1]; omega)
  rw [hpos, bias_row]
  refine shapeCast_apply _ shapeCasts_S2000_S1x2000 (ix2 (0 : Fin 1) q) (ix1 q) ?_
  rw [Shape.rowMajor_val_one, Shape.rowMajor_val_two]
  show q.val = 0 * 2000 + q.val
  omega

end Cert.KernelIdeal.BlockRead

end
-- ==== Proof.FoldAtIndex.lean ====
/-
  What the output block holds when a run of 16 grid points ends, entry by entry, and hence the whole result array.

  Row block r (r = 0, 1) is visited by the 16 consecutive points 16·r … 16·r + 15. The first point stores
  0 + (its block product), each later point adds its own block product to what is there, and the last point also
  adds the bias row. So entry (p, q) of the block ends at

      Σ_{s < 16} Σ_{kk < 512} weights(1000·r + p, 512·s + kk) · input(512·s + kk, q)  +  bias q,

  which is the full inner product over the 8192 contraction positions regrouped into 16 blocks of 512 — the
  regrouping law of sums on the extended reals — plus the bias. The array index (i₀, i₁) lies in row block
  i₀ / 1000 at block entry (i₀ % 1000, i₁), and 1000·(i₀ / 1000) + i₀ % 1000 = i₀.
-/
import proofs.«142126_j70317204570841_2_alg».proof.Proof.Gen.KernelIdeal.Value
import proofs.«142126_j70317204570841_2_alg».proof.Proof.MatBias
import proofs.«142126_j70317204570841_2_alg».proof.Proof.PayloadAt
import proofs.«142126_j70317204570841_2_alg».proof.Proof.BlockRead

set_option maxRecDepth 16384

noncomputable section

namespace Cert.KernelIdeal.FoldAtIndex

open Cert.KernelIdeal Cert.KernelIdeal.Gen Cert.KernelIdeal.Value Idealize.ShloMosaic Idealize.ShloMosaic.TcCoe Idealize.SL.Sem
open Idealize.ShloMosaic.ValueIdx Cert.KernelIdeal.PayloadAt Cert.KernelIdeal.BlockRead
open scoped BigOperators

variable (m : (ℓ : Loc nD τ sig) → Buf (Elt Ideal) ℓ)

/-- The block product of grid point n at block entry y: row y₀ of the point's weight block times column y₁ of its
    input block, over the block's 512 contraction positions. (Zero past the grid, where it is never read.) -/
def addend (c : Dev nD) (n : ℕ) (y : S1000x2000.Idx) : EReal :=
  if h : n < cfg0.N then blockProduct (iblk m c 0 ⟨n, h⟩) (iblk m c 1 ⟨n, h⟩) y else 0

/-- The first point of a run leaves 0 + its block product. -/
theorem reset_apply (c : Dev nD) (n : ℕ) (h : n < cfg0.N) (y : S1000x2000.Idx) :
    reset3 m c n h y = 0 + addend m c n y := by
  unfold reset3 addend
  rw [dif_pos h]
  refine (accumulate_eq (iblk m c 0 ⟨n, h⟩) (iblk m c 1 ⟨n, h⟩) (k0_pay1 (F := Ideal)) y).trans ?_
  rw [zeroBlock_apply]

/-- A middle point of a run (neither first nor last) adds its block product to what the point before left. -/
theorem step_mid_apply (c : Dev nD) (n : ℕ) (h : n < cfg0.N) (acc : Vec Ideal S1000x2000 .f32) (y : S1000x2000.Idx)
    (h0 : ¬n % 16 = 0) (h15 : ¬n % 16 = 15) :
    step3 m c n h acc y = acc y + addend m c n y := by
  unfold step3 addend
  rw [if_pos ⟨h0, h15⟩, dif_pos h]
  exact accumulate_eq (iblk m c 0 ⟨n, h⟩) (iblk m c 1 ⟨n, h⟩) acc y

/-- The last point of a run adds its block product and then the bias block's entry of the column. -/
theorem step_last_apply (c : Dev nD) (n : ℕ) (h : n < cfg0.N) (acc : Vec Ideal S1000x2000 .f32) (y : S1000x2000.Idx)
    (h15 : n % 16 = 15) :
    step3 m c n h acc y = acc y + addend m c n y + biasEntry (iblk m c 2 ⟨n, h⟩) (y 1) := by
  unfold step3 addend
  rw [if_neg (fun hh => hh.2 h15), if_pos ⟨by omega, h15⟩, dif_pos h]
  refine (addBias_eq _ (iblk m c 2 ⟨n, h⟩) y).trans ?_
  exact congrArg (· + biasEntry (iblk m c 2 ⟨n, h⟩) (y 1))
    (accumulate_eq (iblk m c 0 ⟨n, h⟩) (iblk m c 1 ⟨n, h⟩) acc y)

/-- THE WHOLE RUN of row block r at block entry y: the 16 block products added up, plus the bias entry. -/
theorem run_apply (c : Dev nD) (r : ℕ) (h : 16 * r + 15 < cfg0.N) (y : S1000x2000.Idx) :
    Pipeline.accAt (reset3 m c) (step3 m c) (16 * r) 15 h y
      = (∑ s ∈ Finset.range 16, addend m c (16 * r + s) y) + biasEntry (iblk m c 2 ⟨16 * r + 15, h⟩) (y 1) := by
  show Pipeline.accAt (reset3 m c) (step3 m c) (16 * r) (14 + 1) h y = _
  rw [Pipeline.accAt_succ, step_last_apply m c (16 * r + (14 + 1)) h _ y (by omega)]
  rw [Pipeline.accAt_add_apply (ι := S1000x2000.Idx) (β := EReal) (reset3 m c) (step3 m c) (fun _ => 0) (addend m c) (16 * r) 14
    (fun hb i => reset_apply m c (16 * r) hb i)
    (fun n hn acc i h1 h2 => step_mid_apply m c n hn acc i (by omega) (by omega)) 14 le_rfl _ y]
  rw [zero_add, Finset.sum_range_succ _ 15]

/-- The block product of point 16·r + s at block entry (p, q), as entries of the argument arrays: the s-th partial
    inner product of row R = 1000·r + p of the weights with column q of the input. -/
theorem addend_apply (c : Dev nD) (r : ℕ) (s : Fin 16) (hr : r < 2) (p : Fin 1000) (q : Fin 2000) (R : Fin 2000)
    (hR : R.val = r * 1000 + p.val) :
    addend m c (16 * r + s.val) (ix2 p q)
      = Cert.MatBias.blockSum (m ((c : Thread nD τ).loc main_arg0)) (m ((c : Thread nD τ).loc main_arg2)) R q s := by
  have hs := s.isLt
  have hN : cfg0.N = 32 := N_0
  have hlt : 16 * r + s.val < cfg0.N := by rw [hN]; omega
  unfold addend blockProduct Cert.MatBias.blockSum
  rw [dif_pos hlt]
  refine Finset.sum_congr rfl fun kk _ => ?_
  have hkk := kk.isLt
  exact congrArg₂ (fun a b : EReal => a * b)
    (weight_block_apply m c ⟨16 * r + s.val, hlt⟩ p kk R ⟨512 * s.val + kk.val, by omega⟩
      (by show R.val = (16 * r + s.val) / 16 * 1000 + p.val; rw [hR]; omega)
      (by show 512 * s.val + kk.val = (16 * r + s.val) % 16 * 512 + kk.val; omega))
    (input_block_apply m c ⟨16 * r + s.val, hlt⟩ kk q ⟨512 * s.val + kk.val, by omega⟩
      (by show 512 * s.val + kk.val = (16 * r + s.val) % 16 * 512 + kk.val; omega))

/-- THE RESULT ARRAY after the kernel's run is the specification function of the three argument arrays. -/
theorem kernel_eq (c : Dev nD) :
    G3 m c = Cert.MatBias.matBias (m ((c : Thread nD τ).loc main_arg0)) (m ((c : Thread nD τ).loc main_arg1))
      (m ((c : Thread nD τ).loc main_arg2)) := by
  funext i
  have hi0 : (i 0).val < 2000 := (i 0).isLt
  have hi1 : (i 1).val < 2000 := (i 1).isLt
  have hN : cfg0.N = 32 := N_0
  have hrun : run3Of i = (i 0).val / 1000 := by
    show 1 * ((i 0).val / 1000 - 0) + 1 * ((i 1).val / 2000 - 0) = _
    omega
  have hloc : loc3Of i = ix2 (⟨(i 0).val % 1000, Nat.mod_lt _ (by decide)⟩ : Fin 1000) (i 1) := by
    funext a; apply Fin.ext
    match a with
    | ⟨0, _⟩ => rfl
    | ⟨1, _⟩ => show (i 1).val % 2000 = (i 1).val; omega
  unfold G3
  rw [dif_pos (by rw [hrun, hN]; omega), run_apply, hloc, Cert.MatBias.matBias_blocks, Finset.sum_range]
  refine congrArg₂ (fun a b : EReal => a + b) (Finset.sum_congr rfl fun s _ => ?_) (bias_block_apply m c _ (i 1))
  exact addend_apply m c (run3Of i) s (by rw [hrun]; omega) _ (i 1) (i 0)
    (by rw [hrun]; show (i 0).val = (i 0).val / 1000 * 1000 + (i 0).val % 1000; omega)

end Cert.KernelIdeal.FoldAtIndex

end
-- ==== Proof.RefAtIndex.lean ====
/-
  The reference's result is the specification function: its matrix product read at entry (r, j) is the sum over
  all 8192 contraction positions of weights (r, k) times input (k, j), and its two broadcasts of the bias
  (2000 → 1 × 2000 → 2000 × 2000) put bias j on every entry of column j.
-/
import proofs.«142126_j70317204570841_2_alg».proof.Proof.Gen.ReferenceIdeal.Read
import proofs.«142126_j70317204570841_2_alg».proof.Proof.MatBias

noncomputable section

namespace Cert.ReferenceIdeal.RefAtIndex

open Cert.ReferenceIdeal Cert.ReferenceIdeal.Gen Cert.ReferenceIdeal.Read Idealize.ShloMosaic Idealize.ShloMosaic.ValueIdx
open scoped BigOperators

/-- The reference's last stage, as a function of the three arguments, is the specification function. -/
theorem reference_eq (W : (⟨S2000x8192, .f32⟩ : BufTy).Contents (Elt Ideal)) (b : (⟨S2000, .f32⟩ : BufTy).Contents (Elt Ideal))
    (X : (⟨S8192x2000, .f32⟩ : BufTy).Contents (Elt Ideal)) :
    val_main_v3 (F := Ideal) W b X = Cert.MatBias.matBias W b X := by
  funext i
  have el : ∀ k : Fin 8192, lidx_main_v0 i k = ix2 (i 0) k := fun k =>
    funext fun a => Fin.ext (by match a with | ⟨0, _⟩ => rfl | ⟨1, _⟩ => rfl)
  have er : ∀ k : Fin 8192, ridx_main_v0 i k = ix2 k (i 1) := fun k =>
    funext fun a => Fin.ext (by match a with | ⟨0, _⟩ => rfl | ⟨1, _⟩ => rfl)
  have eb : idx_main_v1 (idx_main_v2 i) = ix1 (i 1) :=
    funext fun a => Fin.ext (by match a with | ⟨0, _⟩ => rfl)
  rw [val_main_v3_apply, val_main_v0_apply, val_main_v2_apply, val_main_v1_apply, eb]
  simp only [el, er]
  rfl

end Cert.ReferenceIdeal.RefAtIndex

end
-- ==== Proof.lean ====
/-
  weights · input + bias: a matrix product accumulated block by block over a grid, against one whole product.

  The kernel runs over a 2 × 16 grid. Each of the two row blocks (1000 of the 2000 output rows, all 2000 columns)
  stays in place while the 16 contraction blocks (512 of the 8192 positions each) go by: the first point of the run
  zeroes the block and adds its block product, every later point adds its own, and the last one then adds the bias
  row, bias j to every entry of column j. The reference forms the 2000 × 8192 by 8192 × 2000 product in one piece
  and adds the bias broadcast along the last axis.

  On the extended reals both results are, at entry (r, j),

      Σ_{k < 8192} weights(r, k) · input(k, j)  +  bias j :

  the kernel's 16 partial sums of 512 terms regroup to the one sum of 8192 terms by commutativity and
  associativity of addition alone, which hold at the infinities too, so the inputs' finiteness is not used; the
  narrowing of the matrix operands to bf16 is the identity on extended reals. The idealization changes nothing in
  the kernel (its ledger is empty), so the conjunct relating the kernel to its idealization is trivially true.

  The three termination-and-frame conjuncts come from the generated frame of the word-level kernel and from the
  value run of each idealized program with its result dropped.
-/
import proofs.«142126_j70317204570841_2_alg».proof.Defs
import proofs.«142126_j70317204570841_2_alg».proof.Proof.Gen.Kernel.Frame
import proofs.«142126_j70317204570841_2_alg».proof.Proof.Gen.KernelIdeal.Value
import proofs.«142126_j70317204570841_2_alg».proof.Proof.Gen.Pre_finite_inputs
import proofs.«142126_j70317204570841_2_alg».proof.Proof.Gen.ReferenceIdeal.Run
import proofs.«142126_j70317204570841_2_alg».proof.Proof.Gen.ReferenceIdeal.Read
import proofs.«142126_j70317204570841_2_alg».proof.Proof.FoldAtIndex
import proofs.«142126_j70317204570841_2_alg».proof.Proof.RefAtIndex
import Idealize.ShloMosaic.Adequacy
import Idealize.ShloMosaic.Init

noncomputable section

namespace Cert.Proof

open Idealize.ShloMosaic Idealize.SL.Sem

/-- The idealized kernel terminates without fault and leaves its arguments unchanged: its value run, result dropped. -/
theorem frame_KernelIdeal : frame_KernelIdeal := fun m ρ _ =>
  (θ_run Cert.KernelIdeal.defs _ _).mono (fun _ h c => (h c).2) (Cert.KernelIdeal.Value.run (F := Ideal) m ρ)

/-- The idealized reference likewise: its run, result dropped. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the three arguments both idealized programs end with the same result array: each is
    the full inner product plus the bias of the column, entry by entry. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  rw [Cert.ReferenceIdeal.Read.val_main_v3_eq, Cert.ReferenceIdeal.RefAtIndex.reference_eq]
  exact (Cert.KernelIdeal.FoldAtIndex.kernel_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
